-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x4096x2 : Shape := ⟨3, ![4096, 4096, 2]⟩
abbrev S_ : Shape := ⟨0, ![]⟩

class Facts : Prop where
  bcast_S_S4096x4096x2 : S_.BroadcastsInDim S4096x4096x2 (![] : Fin 0 → Fin S4096x4096x2.rank)
  reducesTo_S4096x4096x2_S_d0_1_2 : S4096x4096x2.ReducesTo [0, 1, 2] S_
  h_S_ : 0 < S_.numel

variable [Facts]

def fn {F : FTy → Type} [FloatOps F] (main_arg0 : FVec F S4096x4096x2 .f32) (main_arg1 : FVec F S4096x4096x2 .f32) : IVec S_ 1 :=
  let main_v0 : FVec F S4096x4096x2 .f32 := Host.absf main_arg0
  let main_cst : FVec F S_ .f32 := constant S_ .f32 0x7F800000#32
  let main_v1 : FVec F S4096x4096x2 .f32 := broadcastInDim S4096x4096x2 ![] bcast_S_S4096x4096x2 main_cst
  let main_v2 : IVec S4096x4096x2 1 := cmpf .olt main_v0 main_v1
  let main_c : IVec S_ 1 := constantI S_ 1 1#1
  let main_v3 : IVec S_ 1 := (fun x v => Host.reduce IntOp.andi x v reducesTo_S4096x4096x2_S_d0_1_2 h_S_) main_v2 main_c
  let main_v4 : FVec F S4096x4096x2 .f32 := Host.absf main_arg1
  let main_cst_0 : FVec F S_ .f32 := constant S_ .f32 0x7F800000#32
  let main_v5 : FVec F S4096x4096x2 .f32 := broadcastInDim S4096x4096x2 ![] bcast_S_S4096x4096x2 main_cst_0
  let main_v6 : IVec S4096x4096x2 1 := cmpf .olt main_v4 main_v5
  let main_c_1 : IVec S_ 1 := constantI S_ 1 1#1
  let main_v7 : IVec S_ 1 := (fun x v => Host.reduce IntOp.andi x v reducesTo_S4096x4096x2_S_d0_1_2 h_S_) main_v6 main_c_1
  let main_v8 : IVec S_ 1 := andi main_v3 main_v7
  main_v8
-- ==== Kernel.lean ====
abbrev S4096x4096x2 : Shape := ⟨3, ![4096, 4096, 2]⟩
abbrev S4096x1 : Shape := ⟨2, ![4096, 1]⟩
abbrev S256x4096x2 : Shape := ⟨3, ![256, 4096, 2]⟩
abbrev S256x1 : Shape := ⟨2, ![256, 1]⟩
abbrev S256x4096x1 : Shape := ⟨3, ![256, 4096, 1]⟩
abbrev S256x4096 : Shape := ⟨2, ![256, 4096]⟩
abbrev S256 : Shape := ⟨1, ![256]⟩
abbrev S_ : Shape := ⟨0, ![]⟩

abbrev nBuf : Space → Nat
  | .hbm => 7
  | .vmem => 6
  | .smem => 0
  | _ => 0

abbrev bufTy : (tb : Table) → Fin (tcTables nBuf tb) → BufTy
  | .hbm, ⟨0, _⟩ => ⟨S4096x4096x2, .f32⟩
  | .hbm, ⟨1, _⟩ => ⟨S4096x4096x2, .f32⟩
  | .hbm, ⟨2, _⟩ => ⟨S4096x1, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .local _ .vmem, ⟨0, _⟩ => ⟨S256x4096x2, .f32⟩
  | .local _ .vmem, ⟨1, _⟩ => ⟨S256x4096x2, .f32⟩
  | .local _ .vmem, ⟨2, _⟩ => ⟨S256x4096x2, .f32⟩
  | .local _ .vmem, ⟨3, _⟩ => ⟨S256x4096x2, .f32⟩
  | .local _ .vmem, ⟨4, _⟩ => ⟨S256x1, .f32⟩
  | .local _ .vmem, ⟨5, _⟩ => ⟨S256x1, .f32⟩
  | _, _ => ⟨S4096x4096x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096x2 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096x2 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S256x4096x2_S256x4096x2_0_0_0 : ∀ a, (![0, 0, 0] : Fin 3 → Nat) a + S256x4096x2.size a ≤ S256x4096x2.size a
  h_S256x4096x2 : 0 < S256x4096x2.numel
  slices_S256x4096x2_o0_0_0_S256x4096x1 : S256x4096x2.Slices ![0, 0, 0] S256x4096x1
  shapeCasts_S256x4096x1_S256x4096 : S256x4096x1.ShapeCasts S256x4096
  slices_S256x4096x2_o0_0_1_S256x4096x1 : S256x4096x2.Slices ![0, 0, 1] S256x4096x1
  reduces_S256x4096x2_S256x4096 : S256x4096x2.Reduces [2] S256x4096
  reduces_S256x4096_S256 : S256x4096.Reduces [1] S256
  shapeCasts_S256_S256x1 : S256.ShapeCasts S256x1
  inb_S256x1_S256x1_0_0 : ∀ a, (![0, 0] : Fin 2 → Nat) a + S256x1.size a ≤ S256x1.size a
  h_S256x1 : 0 < S256x1.numel
  reducesTo_S4096x1_S_d0_1 : S4096x1.ReducesTo [0, 1] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4096x2.size a ≤ S4096x4096x2.size a
  hwx0_0 : ∀ i : grid0.Coords, EltTy.bits .f32 = 32 ∨ (Rect.block (s := S4096x4096x2) S256x4096x2.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x4096x2.size a ≤ S4096x4096x2.size a
  hwx0_1 : ∀ i : grid0.Coords, EltTy.bits .f32 = 32 ∨ (Rect.block (s := S4096x4096x2) S256x4096x2.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1.size a ≤ S4096x1.size a
  hwx0_2 : ∀ i : grid0.Coords, EltTy.bits .f32 = 32 ∨ (Rect.block (s := S4096x1) S256x1.size (cc0_transform_2 i) (hinb0_2 i)).WholeWords (EltTy.packing .f32)

variable [Facts₀]

abbrev win0_0 : Pipeline.Window sig grid0 :=
  Pipeline.Window.ofSpec (Memref.whole main_arg0) S256x4096x2.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x4096x2.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S256x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4096x4096x2 : Shape := ⟨3, ![4096, 4096, 2]⟩
abbrev S4096x4096x1 : Shape := ⟨3, ![4096, 4096, 1]⟩
abbrev S4096x4096 : Shape := ⟨2, ![4096, 4096]⟩
abbrev S_ : Shape := ⟨0, ![]⟩

abbrev nBuf : Space → Nat
  | .hbm => 36
  | .vmem => 0
  | .smem => 0
  | _ => 0

abbrev bufTy : (tb : Table) → Fin (tcTables nBuf tb) → BufTy
  | .hbm, ⟨0, _⟩ => ⟨S4096x4096x2, .f32⟩
  | .hbm, ⟨1, _⟩ => ⟨S4096x4096x2, .f32⟩
  | .hbm, ⟨2, _⟩ => ⟨S4096x4096x1, .f32⟩
  | .hbm, ⟨3, _⟩ => ⟨S4096x4096, .f32⟩
  | .hbm, ⟨4, _⟩ => ⟨S4096x4096x1, .f32⟩
  | .hbm, ⟨5, _⟩ => ⟨S4096x4096, .f32⟩
  | .hbm, ⟨6, _⟩ => ⟨S_, .f32⟩
  | .hbm, ⟨7, _⟩ => ⟨S4096x4096, .f32⟩
  | .hbm, ⟨8, _⟩ => ⟨S4096x4096, .i1⟩
  | .hbm, ⟨9, _⟩ => ⟨S_, .f32⟩
  | .hbm, ⟨10, _⟩ => ⟨S4096x4096, .f32⟩
  | .hbm, ⟨11, _⟩ => ⟨S4096x4096, .i1⟩
  | .hbm, ⟨12, _⟩ => ⟨S4096x4096, .i1⟩
  | .hbm, ⟨13, _⟩ => ⟨S_, .f32⟩
  | .hbm, ⟨14, _⟩ => ⟨S4096x4096, .f32⟩
  | .hbm, ⟨15, _⟩ => ⟨S4096x4096, .i1⟩
  | .hbm, ⟨16, _⟩ => ⟨S4096x4096, .i1⟩
  | .hbm, ⟨17, _⟩ => ⟨S_, .f32⟩
  | .hbm, ⟨18, _⟩ => ⟨S4096x4096, .f32⟩
  | .hbm, ⟨19, _⟩ => ⟨S4096x4096, .i1⟩
  | .hbm, ⟨20, _⟩ => ⟨S4096x4096, .i1⟩
  | .hbm, ⟨21, _⟩ => ⟨S_, .f32⟩
  | .hbm, ⟨22, _⟩ => ⟨S_, .f32⟩
  | .hbm, ⟨23, _⟩ => ⟨S4096x4096, .f32⟩
  | .hbm, ⟨24, _⟩ => ⟨S4096x4096, .f32⟩
  | .hbm, ⟨25, _⟩ => ⟨S4096x4096, .f32⟩
  | .hbm, ⟨26, _⟩ => ⟨S4096x4096, .f32⟩
  | .hbm, ⟨27, _⟩ => ⟨S4096x4096x2, .f32⟩
  | .hbm, ⟨28, _⟩ => ⟨S4096x4096x2, .f32⟩
  | .hbm, ⟨29, _⟩ => ⟨S_, .f32⟩
  | .hbm, ⟨30, _⟩ => ⟨S4096x4096, .f32⟩
  | .hbm, ⟨31, _⟩ => ⟨S4096x4096, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | _, _ => ⟨S4096x4096x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_1 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_2 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_3 : Ref sig .tc := ⟨.hbm, 21, rfl⟩
abbrev main_cst_4 : Ref sig .tc := ⟨.hbm, 22, rfl⟩
abbrev main_call0_v0 : Ref sig .tc := ⟨.hbm, 23, rfl⟩
abbrev main_call0_v1 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_5 : Ref sig .tc := ⟨.hbm, 29, rfl⟩
abbrev main_v19 : Ref sig .tc := ⟨.hbm, 30, rfl⟩
abbrev main_v20 : Ref sig .tc := ⟨.hbm, 31, rfl⟩
abbrev main_cst_6 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩

abbrev nD : Nat := 1
abbrev τ : Topo := Topo.v7x

variable {F : FTy → Type} [FloatOps F]

class Facts₀ : Prop where
  slices_S4096x4096x2_S4096x4096x1_0_0_0 : S4096x4096x2.Slices ![0, 0, 0] S4096x4096x1
  shapeCasts_S4096x4096x1_S4096x4096 : S4096x4096x1.ShapeCasts S4096x4096
  slices_S4096x4096x2_S4096x4096x1_0_0_1 : S4096x4096x2.Slices ![0, 0, 1] S4096x4096x1
  bcast_S_S4096x4096 : S_.BroadcastsInDim S4096x4096 (![] : Fin 0 → Fin S4096x4096.rank)
  reducesTo_S4096x4096x2_S4096x4096_d2 : S4096x4096x2.ReducesTo [2] S4096x4096
  h_S_ : 0 < S_.numel
  reducesTo_S4096x4096_S_d0_1 : S4096x4096.ReducesTo [0, 1] S_

variable [Facts₀]

class Facts : Prop extends Facts₀ where

variable [Facts]
-- ==== Proof.Spec.lean ====
/-
  The weighted keypoint loss, as one function of the prediction array and the target array (both [B, 4096, 2], the last
  axis the two coordinates of a keypoint).

  A keypoint whose target lies outside the image — a coordinate below 0 or above 1024 — weighs 0.01 (the f32 nearest to
  it), every other keypoint weighs 1. Keypoint (b, k) contributes its weight times the squared distance between its
  prediction and its target, `point`; a row's loss is the sum of its 4096 keypoints' contributions, `rows`; the loss is
  the sum of every keypoint's contribution divided by 4096, `loss`.

  The one law used: a sum over the index pairs (b, k) is the sum over b of the sums over k. It holds in every additive
  commutative monoid, so on the extended reals too, infinite entries or not.
-/
import Idealize.ShloMosaic.PureOps.Ideal
import Idealize.ShloMosaic.PureOps.Ideal.Laws
import Idealize.ShloMosaic.Lib.ValueIdx

noncomputable section

open scoped BigOperators

namespace Cert.KpLoss

open Idealize.ShloMosaic Idealize.ShloMosaic.ValueIdx

/-- The weight of a keypoint, from its target's two coordinates: the f32 word of 0.01 when a coordinate is below 0 or
    above 1024, else 1. -/
def weight (tx ty : EReal) : EReal :=
  Scalar.select
    (IntOp.ori (IntOp.ori (IntOp.ori
      (FloatOps.cmpf (F := Ideal) (φ := .f32) .olt tx (FloatOps.ofBits (F := Ideal) .f32 0x00000000#32))
      (FloatOps.cmpf (F := Ideal) (φ := .f32) .ogt tx (FloatOps.ofBits (F := Ideal) .f32 0x44800000#32)))
      (FloatOps.cmpf (F := Ideal) (φ := .f32) .olt ty (FloatOps.ofBits (F := Ideal) .f32 0x00000000#32)))
      (FloatOps.cmpf (F := Ideal) (φ := .f32) .ogt ty (FloatOps.ofBits (F := Ideal) .f32 0x44800000#32)))
    (FloatOps.ofBits (F := Ideal) .f32 0x3C23D70A#32) (FloatOps.ofBits (F := Ideal) .f32 0x3F800000#32)

/-- One keypoint's contribution: its weight times the squared distance of the prediction (ox, oy) from the target (tx, ty). -/
def point (ox oy tx ty : EReal) : EReal :=
  weight tx ty * ((ox - tx) * (ox - tx) + (oy - ty) * (oy - ty))

/-- Keypoint (b, k)'s contribution, read off the two arrays. -/
def term {n : Nat} (o t : (⟨3, ![n, 4096, 2]⟩ : Shape).Idx → EReal) (b : Fin n) (k : Fin 4096) : EReal :=
  point (o (ix3 b k (0 : Fin 2))) (o (ix3 b k (1 : Fin 2))) (t (ix3 b k (0 : Fin 2))) (t (ix3 b k (1 : Fin 2)))

/-- The rows' losses as a column: entry (b, 0) is the sum of row b's 4096 contributions. -/
def rows {n : Nat} (o t : (⟨3, ![n, 4096, 2]⟩ : Shape).Idx → EReal) : (⟨2, ![n, 1]⟩ : Shape).Idx → EReal :=
  fun i => ∑ k : Fin 4096, term o t ⟨(i 0).val, idx2_lt0 i⟩ k

/-- The loss: every keypoint's contribution summed from the f32 zero, divided by the f32 word of 4096. -/
def loss (o t : (⟨3, ![4096, 4096, 2]⟩ : Shape).Idx → EReal) : (⟨0, ![]⟩ : Shape).Idx → EReal :=
  fun _ => FloatOps.hostDivf (F := Ideal) (φ := .f32)
    (FloatOps.ofBits (F := Ideal) .f32 0x00000000#32 + ∑ b : Fin 4096, ∑ k : Fin 4096, term o t b k)
    (FloatOps.ofBits (F := Ideal) .f32 0x45800000#32)

/-- The column of row losses summed from the f32 zero and divided by 4096 is the loss: the sum over the column's
    index pairs (b, 0) is the sum over b, and each entry is already the sum over k. -/
theorem rows_total (o t : (⟨3, ![4096, 4096, 2]⟩ : Shape).Idx → EReal) (j : (⟨0, ![]⟩ : Shape).Idx) :
    FloatOps.hostDivf (F := Ideal) (φ := .f32)
      (FloatOps.ofBits (F := Ideal) .f32 0x00000000#32 + ∑ i : (⟨2, ![4096, 1]⟩ : Shape).Idx, rows o t i)
      (FloatOps.ofBits (F := Ideal) .f32 0x45800000#32) = loss o t j := by
  unfold loss
  rw [sum_idx2]
  refine congrArg (fun s => FloatOps.hostDivf (F := Ideal) (φ := .f32) (_ + s) _) (Finset.sum_congr rfl fun b _ => ?_)
  rw [Fin.sum_univ_one]
  rfl

end Cert.KpLoss

end
-- ==== Proof.LibColumn.lean ====
/-
  A vector as a one-column matrix, read at an index. An array of `a` entries recast to `a` rows of one column holds at
  row `p` (whatever the column coordinate, which can only be 0) the operand's entry `p`: row-major order counts the same
  entries in the same order on both sides.
-/
import Idealize.ShloMosaic.Lib.Pipeline.Value
import Idealize.ShloMosaic.Lib.ValueLayout

namespace Idealize.ShloMosaic.ValueIdx

open Idealize.ShloMosaic

variable {α : Type}

/-- An `[a]` array cast to `[a, 1]` reads, at `(p, u)`, the operand at `p`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

end Idealize.ShloMosaic.ValueIdx
-- ==== Proof.Body.lean ====
/-
  What the kernel's body stores, read at an entry.

  From its block of the predictions and its block of the targets (both [256, 4096, 2]) the body stores a column
  [256, 1]: entry (p, 0) is the sum over the 4096 keypoints k of row p of weight(p, k) · Σ_c (output − target)² — the
  weight read off the target's two coordinate slices recast from [256, 4096, 1] to [256, 4096], the inner sum a lane
  sum over the coordinate axis, the outer one a lane sum over the keypoint axis, its result [256] recast to a column.
-/
import proofs.«136607_j57982058496386_1_alg».proof.Proof.Gen.KernelIdeal.Skeleton
import proofs.«136607_j57982058496386_1_alg».proof.Proof.Spec
import proofs.«136607_j57982058496386_1_alg».proof.Proof.LibColumn
import Idealize.ShloMosaic.Lib.Pipeline.Value
import Idealize.ShloMosaic.Lib.ValueIdx
import Idealize.ShloMosaic.PureOps.Ideal.Laws

noncomputable section

open scoped BigOperators

namespace Cert.KpLoss.Body

open Cert.KernelIdeal Cert.KernelIdeal.Gen
open Idealize.ShloMosaic Idealize.ShloMosaic.ValueIdx Cert.KpLoss

/-- A coordinate slice of a block, recast from [256, 4096, 1] to [256, 4096], at (p, k) reads the block at (p, k, c):
    row-major position p·4096 + k on both sides. -/
theorem coord_slice (c : Fin 2) (v : FVec Ideal S256x4096x2 .f32) (h1 : S256x4096x2.Slices ![0, 0, c.val] S256x4096x1)
    (h2 : S256x4096x1.ShapeCasts S256x4096) (p : Fin 256) (k : Fin 4096) :
    shapeCast S256x4096 (extractStridedSlice S256x4096x1 ![0, 0, c.val] v h1) h2 (ix2 p k) = v (ix3 p k c) := by
  refine (shapeCast_apply _ h2 (ix2 p k) (ix3 p k (0 : Fin 1)) ?_).trans ?_
  · rw [Shape.rowMajor_val_three, Shape.rowMajor_val_two]
    show (p.val * 4096 + k.val) * 1 + 0 = p.val * 4096 + k.val
    omega
  · exact extractStridedSlice_apply _ v h1 _ _ (fun a => match a with
      | ⟨0, _⟩ => by show p.val = 0 + p.val; omega
      | ⟨1, _⟩ => by show k.val = 0 + k.val; omega
      | ⟨2, _⟩ => by show c.val = c.val + 0; omega)

/-- A lane sum over the coordinate axis at (p, k) is the sum of the two entries (p, k, ·). -/
theorem coord_sum (v : FVec Ideal S256x4096x2 .f32) (h : S256x4096x2.Reduces [2] S256x4096) (hφ : FKind.Formats .f32)
    (hacc : (0x00000000#32 : BitVec 32) = FKind.add.neutral .f32 hφ) (p : Fin 256) (k : Fin 4096) :
    multiReduction .add [2] S256x4096 v 0x00000000#32 h hφ hacc (ix2 p k) = v (ix3 p k (0 : Fin 2)) + v (ix3 p k (1 : Fin 2)) := by
  refine (Ideal.multiReduction_add_single v _ h hφ hacc (ix2 p k)).trans ?_
  refine (Fin.sum_univ_two _).trans ?_
  refine congrArg₂ (fun a b : EReal => a + b) (congrArg v (funext fun a => Fin.ext ?_)) (congrArg v (funext fun a => Fin.ext ?_))
  · match a with | ⟨0, _⟩ => rfl | ⟨1, _⟩ => rfl | ⟨2, _⟩ => rfl
  · match a with | ⟨0, _⟩ => rfl | ⟨1, _⟩ => rfl | ⟨2, _⟩ => rfl

/-- A lane sum over the keypoint axis at p is the sum over k of the entries (p, k). -/
theorem row_sum (v : FVec Ideal S256x4096 .f32) (h : S256x4096.Reduces [1] S256) (hφ : FKind.Formats .f32)
    (hacc : (0x00000000#32 : BitVec 32) = FKind.add.neutral .f32 hφ) (p : Fin 256) :
    multiReduction .add [1] S256 v 0x00000000#32 h hφ hacc (ix1 p) = ∑ k : Fin 4096, v (ix2 p k) := by
  refine (Ideal.multiReduction_add_single v _ h hφ hacc (ix1 p)).trans ?_
  exact Finset.sum_congr rfl fun k _ => congrArg v (funext fun a => Fin.ext (by
    match a with | ⟨0, _⟩ => rfl | ⟨1, _⟩ => rfl))

/-- THE STORED COLUMN at (p, u): the sum of row p's 4096 contributions, read off the two blocks. -/
theorem pay_apply (x0 x1 : Vec Ideal S256x4096x2 .f32) (p : Fin 256) (u : Fin 1) :
    k0_pay1 (F := Ideal) x0 x1 (ix2 p u) = ∑ k : Fin 4096, term x0 x1 p k := by
  unfold k0_pay1
  dsimp only
  refine (shapeCast_a_a1_apply _ _ p u).trans ?_
  refine (row_sum _ _ _ _ p).trans ?_
  refine Finset.sum_congr rfl fun k _ => ?_
  have hx : shapeCast S256x4096 (extractStridedSlice S256x4096x1 ![0, 0, 0] x1 slices_S256x4096x2_o0_0_0_S256x4096x1)
      shapeCasts_S256x4096x1_S256x4096 (ix2 p k) = x1 (ix3 p k (0 : Fin 2)) :=
    coord_slice 0 x1 slices_S256x4096x2_o0_0_0_S256x4096x1 shapeCasts_S256x4096x1_S256x4096 p k
  have hy : shapeCast S256x4096 (extractStridedSlice S256x4096x1 ![0, 0, 1] x1 slices_S256x4096x2_o0_0_1_S256x4096x1)
      shapeCasts_S256x4096x1_S256x4096 (ix2 p k) = x1 (ix3 p k (1 : Fin 2)) :=
    coord_slice 1 x1 slices_S256x4096x2_o0_0_1_S256x4096x1 shapeCasts_S256x4096x1_S256x4096 p k
  unfold term point
  refine congrArg₂ (fun a b : EReal => a * b) ?_ ?_
  · unfold weight
    rw [← hx, ← hy]
    rfl
  · exact coord_sum _ _ _ _ p k

end Cert.KpLoss.Body

end
-- ==== Proof.Blocks.lean ====
/-
  From the grid's blocks to the column of row losses.

  Grid point t (of 16) reads rows 256·t … 256·t + 255 of both arrays, all 4096 keypoints and both coordinates, and
  writes rows 256·t … 256·t + 255 of the [4096, 1] column. What it writes at (p, 0) is the sum of the contributions of
  row 256·t + p of the arrays: the block of `rows` of the two arrays. The sixteen blocks tile the column — row r lies in
  the block of point r / 256 — so after the run the column is `rows` of the two arrays.
-/
import proofs.«136607_j57982058496386_1_alg».proof.Proof.Gen.KernelIdeal.Frame
import proofs.«136607_j57982058496386_1_alg».proof.Proof.Body
import Idealize.ShloMosaic.Lib.Pipeline.Value

noncomputable section

open scoped BigOperators

namespace Cert.KpLoss.Blocks

open Cert.KernelIdeal Cert.KernelIdeal.Gen
open Idealize.ShloMosaic Idealize.ShloMosaic.TcCoe Idealize.SL.Sem Idealize.ShloMosaic.ValueIdx Cert.KpLoss
open Idealize.ShloMosaic.Pipeline (Dat)

variable (m : (ℓ : Loc nD τ sig) → Buf (Elt Ideal) ℓ) (ρ : Dev nD → PrngReg)

theorem zeros2 : (![0, 0] : Fin 2 → Nat) = fun _ => 0 := funext fun a => by fin_cases a <;> rfl
theorem zeros3 : (![0, 0, 0] : Fin 3 → Nat) = fun _ => 0 := funext fun a => by fin_cases a <;> rfl

/-- The block indices at a point, decided over the sixteen points: both input blocks sit at the output block's row
    index and at 0 on the other axes, and the output's row index is at most 15. -/
theorem block_indices : ∀ t : Fin cfg0.N,
    win0_0.index t (0 : Fin 3) = win0_2.index t (0 : Fin 2)
    ∧ win0_0.index t (1 : Fin 3) = 0 ∧ win0_0.index t (2 : Fin 3) = 0
    ∧ win0_1.index t (0 : Fin 3) = win0_2.index t (0 : Fin 2)
    ∧ win0_1.index t (1 : Fin 3) = 0 ∧ win0_1.index t (2 : Fin 3) = 0
    ∧ win0_2.index t (1 : Fin 2) = 0 ∧ win0_2.index t (0 : Fin 2) ≤ 15 :=
  (by decide +kernel : ∀ t : Fin grid0.N, _)

/-- Every one of the sixteen row blocks is some point's. -/
theorem block_onto : ∀ q : Fin 16, ∃ t : Fin cfg0.N, win0_2.index t = ![q.val, 0] :=
  (by decide +kernel : ∀ q : Fin 16, ∃ t : Fin grid0.N, win0_2.index t = ![q.val, 0])

/-- The predictions' block at point t, at (p, k, e), is the array at row (block row index)·256 + p. -/
theorem out_block_apply (c : Dev nD) (t : Fin cfg0.N) (p : Fin 256) (k : Fin 4096) (e : Fin 2) (r : Fin 4096)
    (hr : r.val = win0_2.index t (0 : Fin 2) * 256 + p.val) :
    (iblk m c 0 t : Vec Ideal S256x4096x2 .f32) (ix3 p k e) = (V m c main_arg0 : S4096x4096x2.Idx → EReal) (ix3 r k e) := by
  obtain ⟨e0, e1, e2, -⟩ := block_indices t
  unfold iblk
  rw [View.read_apply]
  show V m c main_arg0 _ = V m c main_arg0 _
  refine congrArg (V m c main_arg0) (funext fun a => Fin.ext ?_)
  match a with
  | ⟨0, _⟩ => show win0_0.index t (0 : Fin 3) * 256 + 1 * p.val = r.val; rw [e0, hr]; omega
  | ⟨1, _⟩ => show win0_0.index t (1 : Fin 3) * 4096 + 1 * k.val = k.val; rw [e1]; omega
  | ⟨2, _⟩ => show win0_0.index t (2 : Fin 3) * 2 + 1 * e.val = e.val; rw [e2]; omega

/-- The targets' block likewise. -/
theorem tgt_block_apply (c : Dev nD) (t : Fin cfg0.N) (p : Fin 256) (k : Fin 4096) (e : Fin 2) (r : Fin 4096)
    (hr : r.val = win0_2.index t (0 : Fin 2) * 256 + p.val) :
    (iblk m c 1 t : Vec Ideal S256x4096x2 .f32) (ix3 p k e) = (V m c main_arg1 : S4096x4096x2.Idx → EReal) (ix3 r k e) := by
  obtain ⟨-, -, -, e0, e1, e2, -⟩ := block_indices t
  unfold iblk
  rw [View.read_apply]
  show V m c main_arg1 _ = V m c main_arg1 _
  refine congrArg (V m c main_arg1) (funext fun a => Fin.ext ?_)
  match a with
  | ⟨0, _⟩ => show win0_1.index t (0 : Fin 3) * 256 + 1 * p.val = r.val; rw [e0, hr]; omega
  | ⟨1, _⟩ => show win0_1.index t (1 : Fin 3) * 4096 + 1 * k.val = k.val; rw [e1]; omega
  | ⟨2, _⟩ => show win0_1.index t (2 : Fin 3) * 2 + 1 * e.val = e.val; rw [e2]; omega

/-- What point t stores at an entry of its block is `rows` of the two arrays at that entry's place in the column. -/
theorem stored_apply (c : Dev nD) (t : Fin cfg0.N) (y : S256x1.Idx) :
    k0_pay1 (F := Ideal) (iblk m c 0 t) (iblk m c 1 t) y
      = rows (V m c main_arg0 : S4096x4096x2.Idx → EReal) (V m c main_arg1 : S4096x4096x2.Idx → EReal)
          (((cfg0.win 2).blk t).view.emb y) := by
  obtain ⟨p, u, rfl⟩ : ∃ (p : Fin 256) (u : Fin 1), y = ix2 p u := ⟨y 0, y 1, eq_ix2 y⟩
  refine (Body.pay_apply (iblk m c 0 t) (iblk m c 1 t) p u).trans ?_
  unfold rows
  refine Finset.sum_congr rfl fun k _ => ?_
  have hr : (⟨((((cfg0.win 2).blk t).view.emb (ix2 p u)) 0).val, idx2_lt0 _⟩ : Fin 4096).val
      = win0_2.index t (0 : Fin 2) * 256 + p.val := by
    show win0_2.index t (0 : Fin 2) * 256 + 1 * p.val = _
    omega
  unfold term
  rw [out_block_apply m c t p k 0 _ hr, out_block_apply m c t p k 1 _ hr,
    tgt_block_apply m c t p k 0 _ hr, tgt_block_apply m c t p k 1 _ hr]

/-- WHAT POINT t WRITES BACK is block t of `rows` of the two arrays. -/
theorem flushed_eq (c : Dev nD) (t : Fin cfg0.N) :
    (dats m 0 c).flushed 2 t = ((cfg0.win 2).blk t).view.read (Elt Ideal)
      (rows (V m c main_arg0 : S4096x4096x2.Idx → EReal) (V m c main_arg1 : S4096x4096x2.Idx → EReal)) := by
  show (cfg0.win 2).cut (grid0.coords t) ((dats m 0 c).after 2 t) = _
  rw [after0_2]
  unfold out0_2
  rw [View.canon_unit_zero zeros2]
  simp only [View.ld_unit_zero (S := S256x4096x2) zeros3]
  funext j
  exact stored_apply m c t j

/-- An index of the column is in point t's block iff each coordinate is in the block's range on its axis. -/
theorem mem_blk (t : Fin cfg0.N) (i : S4096x1.Idx) :
    i ∈ ((cfg0.win 2).blk t).view.set ↔ ∀ a : Fin 2, win0_2.index t a * S256x1.size a ≤ (i a).val ∧ (i a).val < win0_2.index t a * S256x1.size a + S256x1.size a := by
  show i ∈ ((View.whole main_v0).slice (win0_2.rect t)).set ↔ _
  rw [View.set_slice_whole, Rect.mem_set_unit]
  exact Iff.rfl

/-- Row r of the column lies in the block of the point whose row block index is r / 256. -/
theorem cover (i : S4096x1.Idx) : ∃ t : Fin cfg0.N, (cfg0.win 2).flush t = true ∧ i ∈ ((cfg0.win 2).blk t).view.set := by
  have hi0 : (i 0).val < 4096 := (i 0).isLt
  have hi1 : (i 1).val < 1 := (i 1).isLt
  obtain ⟨t, ht⟩ := block_onto ⟨(i 0).val / 256, by omega⟩
  have q0 : win0_2.index t (0 : Fin 2) = (i 0).val / 256 := congrFun ht 0
  have q1 : win0_2.index t (1 : Fin 2) = 0 := congrFun ht 1
  refine ⟨t, flush0_2 t, ?_⟩
  rw [mem_blk]
  intro a
  match a with
  | ⟨0, _⟩ => show win0_2.index t (0 : Fin 2) * 256 ≤ (i 0).val ∧ (i 0).val < win0_2.index t (0 : Fin 2) * 256 + 256; omega
  | ⟨1, _⟩ => show win0_2.index t (1 : Fin 2) * 1 ≤ (i 1).val ∧ (i 1).val < win0_2.index t (1 : Fin 2) * 1 + 1; omega

/-- THE COLUMN AFTER THE RUN: `rows` of the two argument arrays. -/
theorem column_eq (c : Dev nD) :
    (dats m 0 c).arrAt 2 cfg0.N = rows (V m c main_arg0 : S4096x4096x2.Idx → EReal) (V m c main_arg1 : S4096x4096x2.Idx → EReal) :=
  (dats m 0 c).arrAt_eq_of_cover 2 _ (fun t _ => flushed_eq m c t) cover

end Cert.KpLoss.Blocks

end
-- ==== Proof.KernelLoss.lean ====
/-
  The kernel's program computes `loss`.

  After the call the program sums the column of row losses over both of its axes from the f32 zero and divides by the
  f32 word of 4096. The column is `rows` of the two arguments, so the result is the sum over the column's entries
  (b, 0) of row b's sum over k — the double sum of `loss` — divided by 4096.
-/
import proofs.«136607_j57982058496386_1_alg».proof.Proof.Blocks
import Idealize.ShloMosaic.Lib.StableHlo.Run

noncomputable section

open scoped BigOperators

namespace Cert.KpLoss.Kernel

open Cert.KernelIdeal Cert.KernelIdeal.Gen
open Idealize.ShloMosaic Idealize.ShloMosaic.TcCoe Idealize.SL.Sem Idealize.ShloMosaic.ValueIdx Cert.KpLoss
open Idealize.ShloMosaic.Pipeline (Dat)

variable (m : (ℓ : Loc nD τ sig) → Buf (Elt Ideal) ℓ) (ρ : Dev nD → PrngReg)

/-- The two host lines after the call, applied to a column: its total from the f32 zero, divided by 4096. -/
theorem tail_apply (col : FVec Ideal S4096x1 .f32) (j : S_.Idx) :
    Host.divf (F := Ideal) (Host.reduceAdd (F := Ideal) col (constant (F := Ideal) S_ .f32 0x00000000#32) reducesTo_S4096x1_S_d0_1 h_S_)
        (constant (F := Ideal) S_ .f32 0x45800000#32) j
      = FloatOps.hostDivf (F := Ideal) (φ := .f32)
          (FloatOps.ofBits (F := Ideal) .f32 0x00000000#32 + ∑ i : S4096x1.Idx, col i)
          (FloatOps.ofBits (F := Ideal) .f32 0x45800000#32) := by
  show FloatOps.hostDivf (Host.reduceAdd (F := Ideal) col _ reducesTo_S4096x1_S_d0_1 h_S_ j) _ = _
  refine congrArg (fun s => FloatOps.hostDivf (F := Ideal) (φ := .f32) s _) ?_
  simp only [Host.reduceAdd, Ideal.hostReduceAdd_def]
  exact Ideal.hostReduceAdd_total reducesTo_S4096x1_S_d0_1 (fun b => b.elim0) col _ j

/-- THE RESULT BUFFER after the lines that follow the call: the loss of the two arguments. -/
theorem result_eq (c : Dev nD) :
    Pipeline.afterTail₀ cfgs (dats m) 0 (V0 m) [hostOps1] c main_v2
      = loss (m ((c : Thread nD τ).loc main_arg0)) (m ((c : Thread nD τ).loc main_arg1)) := by
  unfold Pipeline.afterTail₀
  show StableHlo.after hostOps1 _ (Proc.devRef .tc main_v2) = _
  after_results
  have hcol : Pipeline.withArrays (cfgs 0).spec c (V0 m c) (fun w => (dats m 0 c).arrAt w (cfgs 0).N) (Proc.devRef .tc main_v0)
      = rows (V m c main_arg0 : S4096x4096x2.Idx → EReal) (V m c main_arg1 : S4096x4096x2.Idx → EReal) :=
    (Pipeline.withArrays_arr spec0 launch0.win.arr_inj c _ _ 2).trans (Blocks.column_eq m c)
  rw [hcol]
  funext j
  exact (tail_apply _ j).trans (rows_total _ _ j)

/-- The kernel's program at the extended reals, run: its result buffer ends at the loss of its two arguments, which it
    leaves unchanged. -/
theorem run : θ_run (defs (F := Ideal)) (onTc (τ := τ) (main (F := Ideal))) ⟨m, fun _ => 0, ρ⟩ fun r => ∀ c : Dev nD,
      r.2.mem ((c.tc : Thread nD τ).loc main_v2) = loss (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
      ⟨((h c).2 main_v2 (Pipeline.mem_restRefs_of main_v2 rfl (fun w => by fin_cases w <;> decide))).trans (result_eq m c),
        ((h c).1 0).trans (((dats m 0 c).arrAt_in 0 rfl _).trans ((A_eq m c 0).trans (V_main_arg0 m c))),
        ((h c).1 1).trans (((dats m 0 c).arrAt_in 1 rfl _).trans ((A_eq m c 1).trans (V_main_arg1 m c)))⟩)
    (run_main m ρ)

end Cert.KpLoss.Kernel

end
-- ==== Proof.RefLoss.lean ====
/-
  The reference computes `loss`.

  Read one operation at a time, the reference's result is the f32 zero plus the sum, over all index pairs (b, k), of
  weight(b, k) · (0 + Σ_c (output − target)²), divided by 4096. The weight's two slices of the target, recast from
  [4096, 4096, 1] to [4096, 4096], read the target at (b, k, 0) and (b, k, 1): a row-major position b·4096 + k splits
  back into (b, k). The inner sum starts from the zero word, which is the real 0. The sum over the pairs is then the
  double sum of `loss`.
-/
import proofs.«136607_j57982058496386_1_alg».proof.Proof.Gen.ReferenceIdeal.Read
import proofs.«136607_j57982058496386_1_alg».proof.Proof.Spec
import Idealize.ShloMosaic.Lib.ValueIdx

noncomputable section

open scoped BigOperators

namespace Cert.KpLoss.Ref

open Cert.ReferenceIdeal Cert.ReferenceIdeal.Gen Cert.ReferenceIdeal.Read
open Idealize.ShloMosaic Idealize.ShloMosaic.ValueIdx Cert.KpLoss

/-- The f32 zero word is the real number 0. -/
theorem zero_word : FloatOps.ofBits (F := Ideal) .f32 0x00000000#32 = (0 : EReal) := Ideal.ofBits_zero_f32

/-- The first coordinate slice, recast, at (b, k) reads the array at (b, k, 0). -/
theorem idx_x (b k : Fin 4096) : idx_main_v0 (idx_main_v1 (ix2 b k)) = ix3 b k (0 : Fin 2) := by
  funext a; apply Fin.ext
  match a with
  | ⟨0, _⟩ => show (b.val * 4096 + k.val) / 4096 = b.val; omega
  | ⟨1, _⟩ => show (b.val * 4096 + k.val) / 1 % 4096 = k.val; omega
  | ⟨2, _⟩ => rfl

/-- The second coordinate slice, recast, at (b, k) reads the array at (b, k, 1). -/
theorem idx_y (b k : Fin 4096) : idx_main_v2 (idx_main_v3 (ix2 b k)) = ix3 b k (1 : Fin 2) := by
  funext a; apply Fin.ext
  match a with
  | ⟨0, _⟩ => show (b.val * 4096 + k.val) / 4096 = b.val; omega
  | ⟨1, _⟩ => show (b.val * 4096 + k.val) / 1 % 4096 = k.val; omega
  | ⟨2, _⟩ => rfl

/-- The sum over the coordinate axis at (b, k) runs over (b, k, c). -/
theorem idx_c (b k : Fin 4096) (c : Fin 2) : idx_main_v19 (ix2 b k) c = ix3 b k c := by
  funext a; apply Fin.ext
  match a with
  | ⟨0, _⟩ => rfl
  | ⟨1, _⟩ => rfl
  | ⟨2, _⟩ => rfl

/-- The weighted squared distances at (b, k): keypoint (b, k)'s contribution. -/
theorem elem (x0 x1 : (⟨S4096x4096x2, .f32⟩ : BufTy).Contents (Elt Ideal)) (b k : Fin 4096) :
    val_main_v20 (F := Ideal) x0 x1 (ix2 b k) = term x0 x1 b k := by
  rw [val_main_v20_apply, val_main_v19_apply, val_main_cst_5_apply, zero_word, zero_add, Fin.sum_univ_two,
    idx_c, idx_c, val_main_v18_apply, val_main_v18_apply, val_main_v17_apply, val_main_v17_apply,
    val_main_v16_apply, val_main_v15_apply, val_main_v14_apply, val_main_v13_apply, val_main_v11_apply,
    val_main_v10_apply, val_main_v8_apply, val_main_v7_apply, val_main_v5_apply,
    val_main_v1_apply, val_main_v0_apply, val_main_v3_apply, val_main_v2_apply, idx_x, idx_y,
    val_main_v4_apply, val_main_v6_apply, val_main_v9_apply, val_main_v12_apply,
    val_main_call0_v0_apply, val_main_call0_v1_apply,
    val_main_cst_apply, val_main_cst_0_apply, val_main_cst_1_apply, val_main_cst_2_apply,
    val_main_cst_3_apply, val_main_cst_4_apply]
  rfl

/-- The reference's result is the loss of its two arguments. -/
theorem result_eq (x0 x1 : (⟨S4096x4096x2, .f32⟩ : BufTy).Contents (Elt Ideal)) :
    val_main_v22 (F := Ideal) x0 x1 = loss x0 x1 := by
  funext i
  rw [val_main_v22_apply, val_main_v21_apply, val_main_cst_6_apply, val_main_cst_7_apply, sum_idx2]
  unfold loss
  exact congrArg (fun s => FloatOps.hostDivf (F := Ideal) (φ := .f32) (_ + s) _)
    (Finset.sum_congr rfl fun b _ => Finset.sum_congr rfl fun k _ => elem x0 x1 b k)

end Cert.KpLoss.Ref

end
-- ==== Proof.lean ====
/-
  The weighted keypoint loss: a kernel that streams both [4096, 4096, 2] arrays through a grid of sixteen row blocks,
  writing a [4096, 1] column of row losses that the program then sums and divides by 4096, against the plain formula
  sum(weight · Σ_c (output − target)²) / 4096.

  Read at the extended reals both programs compute `loss` (Proof/Spec.lean): the zero word plus the sum, over all
  keypoints (b, k), of weight(b, k) times the squared distance, divided by 4096. The reference sums over the index pairs
  (b, k) at once (Proof/RefLoss.lean); the kernel sums each row over k inside the body (Proof/Body.lean), the sixteen
  blocks tile the column (Proof/Blocks.lean), and the column's total is the sum over b of the row sums
  (Proof/KernelLoss.lean). A sum over pairs is the sum of the sums in any additive commutative monoid: the equality needs
  no finiteness, and the precondition is not used. The comparisons, the select between the two weights and the literals
  are the same operations on both sides, entry by entry. The idealization rewrote nothing, so `preserves` is trivial; the
  two kernel frames are the generated ones, the reference's frame is its run with the result dropped.
-/
import proofs.«136607_j57982058496386_1_alg».proof.Defs
import proofs.«136607_j57982058496386_1_alg».proof.Proof.Gen.Kernel
import proofs.«136607_j57982058496386_1_alg».proof.Proof.Gen.Kernel.Skeleton
import proofs.«136607_j57982058496386_1_alg».proof.Proof.Gen.Kernel.Launch
import proofs.«136607_j57982058496386_1_alg».proof.Proof.Gen.Kernel.Points
import proofs.«136607_j57982058496386_1_alg».proof.Proof.Gen.Kernel.Frame
import proofs.«136607_j57982058496386_1_alg».proof.Proof.Gen.KernelIdeal
import proofs.«136607_j57982058496386_1_alg».proof.Proof.Gen.KernelIdeal.Skeleton
import proofs.«136607_j57982058496386_1_alg».proof.Proof.Gen.KernelIdeal.Launch
import proofs.«136607_j57982058496386_1_alg».proof.Proof.Gen.KernelIdeal.Points
import proofs.«136607_j57982058496386_1_alg».proof.Proof.Gen.KernelIdeal.Frame
import proofs.«136607_j57982058496386_1_alg».proof.Proof.Gen.ReferenceIdeal
import proofs.«136607_j57982058496386_1_alg».proof.Proof.Gen.ReferenceIdeal.Run
import proofs.«136607_j57982058496386_1_alg».proof.Proof.Gen.ReferenceIdeal.Read
import proofs.«136607_j57982058496386_1_alg».proof.Proof.Gen.Pre_finite_inputs
import proofs.«136607_j57982058496386_1_alg».proof.Proof.KernelLoss
import proofs.«136607_j57982058496386_1_alg».proof.Proof.RefLoss
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernel_ideal : Cert.frame_KernelIdeal := fun m ρ _ => Cert.KernelIdeal.Gen.frame m ρ

/-- The reference has no kernel: its frame is its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Both programs end with their result at `loss` of the arguments, which agree. -/
theorem algebraic : Cert.algebraic_KernelIdeal_ReferenceIdeal := by
  intro m ρ m' ρ' _ hagree
  refine ⟨fun c => Cert.KpLoss.loss (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KpLoss.Kernel.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v22_eq, Cert.KpLoss.Ref.result_eq, (hagree c).1, (hagree c).2]

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
